-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2 : Shape := ⟨2, ![1024, 2]⟩
abbrev S65536x1024 : Shape := ⟨2, ![65536, 1024]⟩
abbrev S65536x2 : Shape := ⟨2, ![65536, 2]⟩
abbrev S2048x2 : Shape := ⟨2, ![2048, 2]⟩
abbrev S2048x1 : Shape := ⟨2, ![2048, 1]⟩
abbrev S_ : Shape := ⟨0, ![]⟩

class Facts : Prop where
  bcast_S_S1024x2 : S_.BroadcastsInDim S1024x2 (![] : Fin 0 → Fin S1024x2.rank)
  reducesTo_S1024x2_S_d0_1 : S1024x2.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S65536x2 : S_.BroadcastsInDim S65536x2 (![] : Fin 0 → Fin S65536x2.rank)
  reducesTo_S65536x2_S_d0_1 : S65536x2.ReducesTo [0, 1] S_
  bcast_S_S2048x2 : S_.BroadcastsInDim S2048x2 (![] : Fin 0 → Fin S2048x2.rank)
  reducesTo_S2048x2_S_d0_1 : S2048x2.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  main_v23

def fn {F : FTy → Type} [FloatOps F] (main_arg0 : FVec F S1024x2 .f32) (main_arg1 : FVec F S65536x1024 .f32) (main_arg2 : FVec F S65536x2 .f32) (main_arg3 : FVec F S2048x2 .f32) (main_arg4 : FVec F S2048x1 .f32) : IVec S_ 1 :=
  let main_v0 : FVec F S1024x2 .f32 := Host.absf main_arg0
  let main_cst : FVec F S_ .f32 := constant S_ .f32 0x7F800000#32
  let main_v1 : FVec F S1024x2 .f32 := broadcastInDim S1024x2 ![] bcast_S_S1024x2 main_cst
  let main_v2 : IVec S1024x2 1 := cmpf .olt main_v0 main_v1
  let main_c : IVec S_ 1 := constantI S_ 1 1#1
  let main_v3 : IVec S_ 1 := (fun x v => Host.reduce IntOp.andi x v reducesTo_S1024x2_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536x2 .f32 := Host.absf main_arg2
  let main_cst_2 : FVec F S_ .f32 := constant S_ .f32 0x7F800000#32
  let main_v10 : FVec F S65536x2 .f32 := broadcastInDim S65536x2 ![] bcast_S_S65536x2 main_cst_2
  let main_v11 : IVec S65536x2 1 := cmpf .olt main_v9 main_v10
  let main_c_3 : IVec S_ 1 := constantI S_ 1 1#1
  let main_v12 : IVec S_ 1 := (fun x v => Host.reduce IntOp.andi x v reducesTo_S65536x2_S_d0_1 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_arg4 main_v13 main_v16
-- ==== Kernel.lean ====
abbrev S1024x2 : Shape := ⟨2, ![1024, 2]⟩
abbrev S65536x1024 : Shape := ⟨2, ![65536, 1024]⟩
abbrev S65536x2 : Shape := ⟨2, ![65536, 2]⟩
abbrev S2048x2 : Shape := ⟨2, ![2048, 2]⟩
abbrev S2048x1 : Shape := ⟨2, ![2048, 1]⟩
abbrev S_ : Shape := ⟨0, ![]⟩
abbrev S2048 : Shape := ⟨1, ![2048]⟩
abbrev S1x2048 : Shape := ⟨2, ![1, 2048]⟩
abbrev S65536x1 : Shape := ⟨2, ![65536, 1]⟩
abbrev S1024x1024 : Shape := ⟨2, ![1024, 1024]⟩
abbrev S1024x1 : Shape := ⟨2, ![1024, 1]⟩
abbrev S1024 : Shape := ⟨1, ![1024]⟩
abbrev S2x2048 : Shape := ⟨2, ![2, 2048]⟩
abbrev S1024x2048 : Shape := ⟨2, ![1024, 2048]⟩

abbrev nBuf : Space → Nat
  | .hbm => 11
  | .vmem => 10
  | .smem => 0
  | _ => 0

abbrev bufTy : (tb : Table) → Fin (tcTables nBuf tb) → BufTy
  | .hbm, ⟨0, _⟩ => ⟨S1024x2, .f32⟩
  | .hbm, ⟨1, _⟩ => ⟨S65536x1024, .f32⟩
  | .hbm, ⟨2, _⟩ => ⟨S65536x2, .f32⟩
  | .hbm, ⟨3, _⟩ => ⟨S2048x2, .f32⟩
  | .hbm, ⟨4, _⟩ => ⟨S2048x1, .f32⟩
  | .hbm, ⟨5, _⟩ => ⟨S2048x2, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S1x2048, .f32⟩
  | .hbm, ⟨10, _⟩ => ⟨S65536x1, .f32⟩
  | .local _ .vmem, ⟨0, _⟩ => ⟨S1024x1024, .f32⟩
  | .local _ .vmem, ⟨1, _⟩ => ⟨S1024x1024, .f32⟩
  | .local _ .vmem, ⟨2, _⟩ => ⟨S1024x2, .f32⟩
  | .local _ .vmem, ⟨3, _⟩ => ⟨S1024x2, .f32⟩
  | .local _ .vmem, ⟨4, _⟩ => ⟨S1024x2, .f32⟩
  | .local _ .vmem, ⟨5, _⟩ => ⟨S2048x2, .f32⟩
  | .local _ .vmem, ⟨6, _⟩ => ⟨S2048x1, .f32⟩
  | .local _ .vmem, ⟨7, _⟩ => ⟨S1x2048, .f32⟩
  | .local _ .vmem, ⟨8, _⟩ => ⟨S1024x1, .f32⟩
  | .local _ .vmem, ⟨9, _⟩ => ⟨S1024x1, .f32⟩
  | _, _ => ⟨S1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2048x2_S2048_d1 : S2048x2.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x2_S1024x2_0_0 : ∀ a, (![0, 0] : Fin 2 → Nat) a + S1024x2.size a ≤ S1024x2.size a
  h_S1024x2 : 0 < S1024x2.numel
  reduces_S1024x2_S1024 : S1024x2.Reduces [1] S1024
  shapeCasts_S1024_S1024x1 : S1024.ShapeCasts S1024x1
  inb_S2048x2_S2048x2_0_0 : ∀ a, (![0, 0] : Fin 2 → Nat) a + S2048x2.size a ≤ S2048x2.size a
  h_S2048x2 : 0 < S2048x2.numel
  transposes_S2048x2_p1_0_S2x2048 : S2048x2.Transposes [1, 0] S2x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S2048x1_S2048x1_0_0 : ∀ a, (![0, 0] : Fin 2 → Nat) a + S2048x1.size a ≤ S2048x1.size a
  h_S2048x1 : 0 < S2048x1.numel
  inb_S1024x1_S1024x1_0_0 : ∀ a, (![0, 0] : Fin 2 → Nat) a + S1024x1.size a ≤ S1024x1.size a
  h_S1024x1 : 0 < S1024x1.numel
  dot_S1024x1024_S1024x2_S1024x2_1_0_0_1_n_n_wf : DotDims.WF S1024x1024 S1024x2 S1024x2 [1] [0] [0] [1] [] []
  dot_S1024x2_S2x2048_S1024x2048_1_0_0_1_n_n_wf : DotDims.WF S1024x2 S2x2048 S1024x2048 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S1024x2.size a
  hwx0_1 : ∀ i : grid0.Coords, EltTy.bits .f32 = 32 ∨ (Rect.block (s := S1024x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S65536x2.size a
  hwx0_2 : ∀ i : grid0.Coords, EltTy.bits .f32 = 32 ∨ (Rect.block (s := S65536x2) S1024x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2.size a ≤ S2048x2.size a
  hwx0_3 : ∀ i : grid0.Coords, EltTy.bits .f32 = 32 ∨ (Rect.block (s := S2048x2) S2048x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S2048x1.size a
  hwx0_4 : ∀ i : grid0.Coords, EltTy.bits .f32 = 32 ∨ (Rect.block (s := S2048x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S65536x1.size a
  hwx0_6 : ∀ i : grid0.Coords, EltTy.bits .f32 = 32 ∨ (Rect.block (s := S65536x1) S1024x1.size (cc0_transform_6 i) (hinb0_6 i)).WholeWords (EltTy.packing .f32)

variable [Facts₀]

def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf
def dot_S1024x2_S2x2048_S1024x2048_1_0_0_1_n_n : DotDims S1024x2 S2x2048 S1024x2048 where
  lhsContracting := [1]
  rhsContracting := [0]
  lhsNonContracting := [0]
  rhsNonContracting := [1]
  lhsBatch := []
  rhsBatch := []
  wf := dot_S1024x2_S2x2048_S1024x2048_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x2 : Shape := ⟨2, ![1024, 2]⟩
abbrev S65536x1024 : Shape := ⟨2, ![65536, 1024]⟩
abbrev S65536x2 : Shape := ⟨2, ![65536, 2]⟩
abbrev S2048x2 : Shape := ⟨2, ![2048, 2]⟩
abbrev S2048x1 : Shape := ⟨2, ![2048, 1]⟩
abbrev S_ : Shape := ⟨0, ![]⟩
abbrev S65536 : Shape := ⟨1, ![65536]⟩
abbrev S65536x1 : Shape := ⟨2, ![65536, 1]⟩
abbrev S2048 : Shape := ⟨1, ![2048]⟩
abbrev S1x2048 : Shape := ⟨2, ![1, 2048]⟩
abbrev S65536x2048 : Shape := ⟨2, ![65536, 2048]⟩
abbrev S2x2048 : Shape := ⟨2, ![2, 2048]⟩

abbrev nBuf : Space → Nat
  | .hbm => 30
  | .vmem => 0
  | .smem => 0
  | _ => 0

abbrev bufTy : (tb : Table) → Fin (tcTables nBuf tb) → BufTy
  | .hbm, ⟨0, _⟩ => ⟨S1024x2, .f32⟩
  | .hbm, ⟨1, _⟩ => ⟨S65536x1024, .f32⟩
  | .hbm, ⟨2, _⟩ => ⟨S65536x2, .f32⟩
  | .hbm, ⟨3, _⟩ => ⟨S2048x2, .f32⟩
  | .hbm, ⟨4, _⟩ => ⟨S2048x1, .f32⟩
  | .hbm, ⟨5, _⟩ => ⟨S65536x2, .f32⟩
  | .hbm, ⟨6, _⟩ => ⟨S65536x2, .f32⟩
  | .hbm, ⟨7, _⟩ => ⟨S65536x2, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S2048x2, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S65536x2048, .f32⟩
  | .hbm, ⟨16, _⟩ => ⟨S65536x2048, .f32⟩
  | .hbm, ⟨17, _⟩ => ⟨S65536x2048, .f32⟩
  | .hbm, ⟨18, _⟩ => ⟨S2x2048, .f32⟩
  | .hbm, ⟨19, _⟩ => ⟨S65536x2048, .f32⟩
  | .hbm, ⟨20, _⟩ => ⟨S_, .f32⟩
  | .hbm, ⟨21, _⟩ => ⟨S65536x2048, .f32⟩
  | .hbm, ⟨22, _⟩ => ⟨S65536x2048, .f32⟩
  | .hbm, ⟨23, _⟩ => ⟨S65536x2048, .f32⟩
  | .hbm, ⟨24, _⟩ => ⟨S65536x2048, .f32⟩
  | .hbm, ⟨25, _⟩ => ⟨S_, .f32⟩
  | .hbm, ⟨26, _⟩ => ⟨S65536x2048, .f32⟩
  | .hbm, ⟨27, _⟩ => ⟨S65536x2048, .f32⟩
  | .hbm, ⟨28, _⟩ => ⟨S65536x2048, .f32⟩
  | .hbm, ⟨29, _⟩ => ⟨S65536x1, .f32⟩
  | _, _ => ⟨S1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S65536x2_S65536_d1 : S65536x2.ReducesTo [1] S65536
  h_S_ : 0 < S_.numel
  bcast_S65536_S65536x1_0 : S65536.BroadcastsInDim S65536x1 (![0] : Fin 1 → Fin S65536x1.rank)
  reducesTo_S2048x2_S2048_d1 : S2048x2.ReducesTo [1] S2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  transposes_S2048x2_S2x2048_1_0 : S2048x2.Transposes [1, 0] S2x2048
  bcast_S_S65536x2048 : S_.BroadcastsInDim S65536x2048 (![] : Fin 0 → Fin S65536x2048.rank)
  dot_S65536x1024_S1024x2_S65536x2_1_0_0_1_n_n_wf : DotDims.WF S65536x1024 S1024x2 S65536x2 [1] [0] [0] [1] [] []
  dot_S65536x2_S2x2048_S65536x2048_1_0_0_1_n_n_wf : DotDims.WF S65536x2 S2x2048 S65536x2048 [1] [0] [0] [1] [] []
  dot_S65536x2048_S2048x1_S65536x1_1_0_0_1_n_n_wf : DotDims.WF S65536x2048 S2048x1 S65536x1 [1] [0] [0] [1] [] []

variable [Facts₀]

def dot_S65536x1024_S1024x2_S65536x2_1_0_0_1_n_n : DotDims S65536x1024 S1024x2 S65536x2 where
  lhsContracting := [1]
  rhsContracting := [0]
  lhsNonContracting := [0]
  rhsNonContracting := [1]
  lhsBatch := []
  rhsBatch := []
  wf := dot_S65536x1024_S1024x2_S65536x2_1_0_0_1_n_n_wf
def dot_S65536x2_S2x2048_S65536x2048_1_0_0_1_n_n : DotDims S65536x2 S2x2048 S65536x2048 where
  lhsContracting := [1]
  rhsContracting := [0]
  lhsNonContracting := [0]
  rhsNonContracting := [1]
  lhsBatch := []
  rhsBatch := []
  wf := dot_S65536x2_S2x2048_S65536x2048_1_0_0_1_n_n_wf
def dot_S65536x2048_S2048x1_S65536x1_1_0_0_1_n_n : DotDims S65536x2048 S2048x1 S65536x1 where
  lhsContracting := [1]
  rhsContracting := [0]
  lhsNonContracting := [0]
  rhsNonContracting := [1]
  lhsBatch := []
  rhsBatch := []
  wf := dot_S65536x2048_S2048x1_S65536x1_1_0_0_1_n_n_wf

class Facts : Prop extends Facts₀ where

variable [Facts]
-- ==== Proof.KernelDots.lean ====
/-
  A matrix product into a zero accumulator, read at an entry.

  At the extended reals the matrix unit's product of an `[a, k]` by a `[k, b]` matrix, accumulated into zero, is at
  entry `(r, c)` the sum over `g` of `L (r, g) · R (g, c)`: the sum over the contraction index, re-indexed by its one
  coordinate.  Stated once for any dimension record whose operand indices are "row of the left, column of the right",
  then taken at the kernel's three products: a block of the deformation basis times the coefficients, the displaced
  pixels times the transposed centres, and the Gaussian weights times the centre coefficients.
-/
import proofs.«142843_j89232240542412_1_alg».proof.Proof.Gen.KernelIdeal
import Idealize.ShloMosaic.Lib.ValueIdx
import Idealize.ShloMosaic.PureOps.Ideal.Laws

noncomputable section

open scoped BigOperators

namespace Cert.Rbf.Kernel

open Idealize.ShloMosaic Idealize.ShloMosaic.ValueIdx

/-- Entry `(r, c)` of a product of an `[a, k]` and a `[k, b]` matrix into a zero accumulator, for a dimension record that
    contracts one axis of extent `k` (`hr`, `hs`), reads the left operand at `(row, contraction)` (`h00`, `h01`) and the
    right at `(contraction, column)` (`h10`, `h11`). -/
theorem matmul_zero_entry {a k b : ℕ} {φ₁ φ₂ : FTy}
    (D : DotDims (⟨2, ![a, k]⟩ : Shape) (⟨2, ![k, b]⟩ : Shape) (⟨2, ![a, b]⟩ : Shape))
    (hr : D.contr.rank = 1) (hs : D.contr.size ⟨0, by omega⟩ = k)
    (h00 : ∀ i q, (D.lhsIdx i q 0).val = (i 0).val) (h01 : ∀ i q, (D.lhsIdx i q 1).val = (q ⟨0, by omega⟩).val)
    (h10 : ∀ i q, (D.rhsIdx i q 0).val = (q ⟨0, by omega⟩).val) (h11 : ∀ i q, (D.rhsIdx i q 1).val = (i 1).val)
    (L : FVec Ideal (⟨2, ![a, k]⟩ : Shape) φ₁) (R : FVec Ideal (⟨2, ![k, b]⟩ : Shape) φ₂) (r : Fin a) (c : Fin b) :
    FloatOps.matmul D none L R (constant (⟨2, ![a, b]⟩ : Shape) .f32 0x00000000#32) (ix2 r c)
      = ∑ g : Fin k, L (ix2 r g) * R (ix2 g c) := by
  rw [Ideal.matmul_constant_zero_apply, ← Equiv.sum_comp (contrEquiv1 D k hr hs).symm]
  refine Finset.sum_congr rfl fun g _ => ?_
  have hk := contrEquiv1_symm_val D k hr hs g
  have el : D.lhsIdx (ix2 r c) ((contrEquiv1 D k hr hs).symm g) = ix2 r g := funext fun x => Fin.ext (by
    match x with
    | ⟨0, _⟩ => exact h00 _ _
    | ⟨1, _⟩ => exact (h01 _ _).trans hk)
  have er : D.rhsIdx (ix2 r c) ((contrEquiv1 D k hr hs).symm g) = ix2 g c := funext fun x => Fin.ext (by
    match x with
    | ⟨0, _⟩ => exact (h10 _ _).trans hk
    | ⟨1, _⟩ => exact h11 _ _)
  rw [el, er]

open Cert.KernelIdeal

/-- A block of the deformation basis times the coefficients. -/
theorem basis_times_coeffs (L : FVec Ideal S1024x1024 .bf16) (R : FVec Ideal S1024x2 .bf16) (r : Fin 1024) (j : Fin 2) :
    matmul dot_S1024x1024_S1024x2_S1024x2_1_0_0_1_n_n none L R (constant S1024x2 .f32 0x00000000#32) (ix2 r j)
      = ∑ g : Fin 1024, L (ix2 r g) * R (ix2 g j) :=
  matmul_zero_entry dot_S1024x1024_S1024x2_S1024x2_1_0_0_1_n_n rfl rfl
    (fun i q => by
      unfold DotDims.lhsIdx
      rw [dif_neg (show ¬(0 : Fin S1024x1024.rank) ∈ dot_S1024x1024_S1024x2_S1024x2_1_0_0_1_n_n.lhsBatch by decide), dif_pos (show (0 : Fin S1024x1024.rank) ∈ dot_S1024x1024_S1024x2_S1024x2_1_0_0_1_n_n.lhsNonContracting by decide)]
      rfl)
    (fun i q => dot_S1024x1024_S1024x2_S1024x2_1_0_0_1_n_n.lhsIdx_val_of_single rfl i q)
    (fun i q => dot_S1024x1024_S1024x2_S1024x2_1_0_0_1_n_n.rhsIdx_val_of_single rfl i q)
    (fun i q => by
      unfold DotDims.rhsIdx
      rw [dif_neg (show ¬(1 : Fin S1024x2.rank) ∈ dot_S1024x1024_S1024x2_S1024x2_1_0_0_1_n_n.rhsBatch by decide), dif_pos (show (1 : Fin S1024x2.rank) ∈ dot_S1024x1024_S1024x2_S1024x2_1_0_0_1_n_n.rhsNonContracting by decide)]
      rfl)
    L R r j

/-- The displaced pixels of a block times a `[2, 2048]` matrix of centres. -/
theorem pixels_times_centres (L : FVec Ideal S1024x2 .bf16) (R : FVec Ideal S2x2048 .bf16) (r : Fin 1024) (c : Fin 2048) :
    matmul dot_S1024x2_S2x2048_S1024x2048_1_0_0_1_n_n none L R (constant S1024x2048 .f32 0x00000000#32) (ix2 r c)
      = ∑ j : Fin 2, L (ix2 r j) * R (ix2 j c) :=
  matmul_zero_entry dot_S1024x2_S2x2048_S1024x2048_1_0_0_1_n_n rfl rfl
    (fun i q => by
      unfold DotDims.lhsIdx
      rw [dif_neg (show ¬(0 : Fin S1024x2.rank) ∈ dot_S1024x2_S2x2048_S1024x2048_1_0_0_1_n_n.lhsBatch by decide), dif_pos (show (0 : Fin S1024x2.rank) ∈ dot_S1024x2_S2x2048_S1024x2048_1_0_0_1_n_n.lhsNonContracting by decide)]
      rfl)
    (fun i q => dot_S1024x2_S2x2048_S1024x2048_1_0_0_1_n_n.lhsIdx_val_of_single rfl i q)
    (fun i q => dot_S1024x2_S2x2048_S1024x2048_1_0_0_1_n_n.rhsIdx_val_of_single rfl i q)
    (fun i q => by
      unfold DotDims.rhsIdx
      rw [dif_neg (show ¬(1 : Fin S2x2048.rank) ∈ dot_S1024x2_S2x2048_S1024x2048_1_0_0_1_n_n.rhsBatch by decide), dif_pos (show (1 : Fin S2x2048.rank) ∈ dot_S1024x2_S2x2048_S1024x2048_1_0_0_1_n_n.rhsNonContracting by decide)]
      rfl)
    L R r c

/-- A block's Gaussian weights times the centre coefficients. -/
theorem weights_times_coeffs (L : FVec Ideal S1024x2048 .bf16) (R : FVec Ideal S2048x1 .bf16) (r : Fin 1024) (u : Fin 1) :
    matmul dot_S1024x2048_S2048x1_S1024x1_1_0_0_1_n_n none L R (constant S1024x1 .f32 0x00000000#32) (ix2 r u)
      = ∑ c : Fin 2048, L (ix2 r c) * R (ix2 c u) :=
  matmul_zero_entry dot_S1024x2048_S2048x1_S1024x1_1_0_0_1_n_n rfl rfl
    (fun i q => by
      unfold DotDims.lhsIdx
      rw [dif_neg (show ¬(0 : Fin S1024x2048.rank) ∈ dot_S1024x2048_S2048x1_S1024x1_1_0_0_1_n_n.lhsBatch by decide), dif_pos (show (0 : Fin S1024x2048.rank) ∈ dot_S1024x2048_S2048x1_S1024x1_1_0_0_1_n_n.lhsNonContracting by decide)]
      rfl)
    (fun i q => dot_S1024x2048_S2048x1_S1024x1_1_0_0_1_n_n.lhsIdx_val_of_single rfl i q)
    (fun i q => dot_S1024x2048_S2048x1_S1024x1_1_0_0_1_n_n.rhsIdx_val_of_single rfl i q)
    (fun i q => by
      unfold DotDims.rhsIdx
      rw [dif_neg (show ¬(1 : Fin S2048x1.rank) ∈ dot_S1024x2048_S2048x1_S1024x1_1_0_0_1_n_n.rhsBatch by decide), dif_pos (show (1 : Fin S2048x1.rank) ∈ dot_S1024x2048_S2048x1_S1024x1_1_0_0_1_n_n.rhsNonContracting by decide)]
      rfl)
    L R r u

end Cert.Rbf.Kernel

end
-- ==== Proof.LibKeepdims.lean ====
/-
  A row statistic kept as a column: reading, at an index given by coordinates, a vector cast to a one-column matrix and
  a one-column matrix broadcast along its rows.  (The library reads the leading-unit-axis casts and the one-row
  broadcast the same way; these are the column forms a sum with kept dimensions produces.)
-/
import Idealize.ShloMosaic.Lib.ValueLayout

namespace Cert.LibKeepdims

open Idealize.ShloMosaic Idealize.ShloMosaic.ValueIdx

variable {α : Type}

/-- An `[a]` vector cast to the column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Consts.lean ====
/-
  The two float literals the programs spell besides zero, as the extended reals their words denote: `2.0` (the factor of
  the cross term on both sides, and the reference's divisor) and `0.5` (the kernel's factor in place of that divisor).
  Stated once, here, so that no other module unfolds a word's encoding.
-/
import Idealize.ShloMosaic.PureOps.Ideal

noncomputable section

namespace Cert.Rbf.Consts

open Idealize.ShloMosaic

/-- The word `0x40000000` denotes the real `2`. -/
theorem ofBits_two : Ideal.ofBits .f32 0x40000000#32 = ((2 : ℝ) : EReal) := by
  simp [Ideal.ofBits, Ideal.ieee, -EReal.coe_mul]; norm_num

/-- The word `0x3F000000` denotes the real `1/2`. -/
theorem ofBits_half : Ideal.ofBits .f32 0x3F000000#32 = ((1 / 2 : ℝ) : EReal) := by
  simp [Ideal.ofBits, Ideal.ieee, -EReal.coe_mul]; norm_num

end Cert.Rbf.Consts

end
-- ==== Proof.RbfRow.lean ====
/-
  The Gaussian radial-basis sum, one pixel at a time.

  A pixel with coordinates `p` is first displaced by a deformation field: the pixel's row `k` of the deformation basis
  contracted with the control coefficients `β`.  Its squared distance to centre `c` is taken by the expansion
  `‖d‖² + ‖c‖² − 2·⟨d, c⟩`, with the centre's squared norm `‖c‖²` supplied, and the pixel's value is the sum over the
  centres of `exp(−dist²/2)` weighted by the centre's coefficient.  The value of a pixel depends on its own row of the
  basis and its own coordinates only; that is what lets an array of pixels be computed in row blocks.

  Both programs compute this function: one writes the halving as a product with `1/2` and the negation as a
  difference from zero, the other as a quotient by `2` of a negation.  `scale_eq` is that step, on every extended
  real.
-/
import proofs.«142843_j89232240542412_1_alg».proof.Proof.Consts
import Idealize.ShloMosaic.Lib.ValueIdx
import Idealize.ShloMosaic.PureOps.Ideal.Laws

noncomputable section

open scoped BigOperators

namespace Cert.Rbf

open Idealize.ShloMosaic Idealize.ShloMosaic.ValueIdx

/-- The displaced pixel: coordinate `j` of the pixel less the deformation field there, the field being the pixel's row
    `k` of the basis contracted with the control coefficients. -/
def shifted (β : (⟨2, ![1024, 2]⟩ : Shape).Idx → EReal) (k : Fin 1024 → EReal) (p : Fin 2 → EReal) (j : Fin 2) : EReal :=
  p j - ∑ g : Fin 1024, k g * β (ix2 g j)

/-- The squared distance from the displaced pixel `d` to centre `c`, expanded: `‖d‖² + ‖c‖² − 2·⟨d, c⟩`, the centre's
    squared norm given as `csq c` (the factor `2` is kept as the word both programs spell). -/
def sqDist (cen : (⟨2, ![2048, 2]⟩ : Shape).Idx → EReal) (csq : Fin 2048 → EReal) (d : Fin 2 → EReal) (c : Fin 2048) : EReal :=
  ((∑ j : Fin 2, d j * d j) + csq c) - Ideal.ofBits .f32 0x40000000#32 * ∑ j : Fin 2, d j * cen (ix2 c j)

/-- A pixel's value: over the centres, the Gaussian of half the squared distance times the centre's coefficient. -/
def pixelValue (β : (⟨2, ![1024, 2]⟩ : Shape).Idx → EReal) (cen : (⟨2, ![2048, 2]⟩ : Shape).Idx → EReal)
    (csq : Fin 2048 → EReal) (a : Fin 2048 → EReal) (k : Fin 1024 → EReal) (p : Fin 2 → EReal) : EReal :=
  ∑ c : Fin 2048, Ideal.exp (-(sqDist cen csq (shifted β k p) c) * ((1 / 2 : ℝ) : EReal)) * a c

/-- A centre's squared norm. -/
def cenSq (cen : (⟨2, ![2048, 2]⟩ : Shape).Idx → EReal) (c : Fin 2048) : EReal :=
  ∑ j : Fin 2, cen (ix2 c j) * cen (ix2 c j)

/-- The whole result at pixel `n` (and the one column `u`): the pixel's value from row `n` of the basis and of the pixel
    array, the centres' squared norms computed from the centres. -/
def valueAt (β : (⟨2, ![1024, 2]⟩ : Shape).Idx → EReal) (K : (⟨2, ![65536, 1024]⟩ : Shape).Idx → EReal)
    (pix : (⟨2, ![65536, 2]⟩ : Shape).Idx → EReal) (cen : (⟨2, ![2048, 2]⟩ : Shape).Idx → EReal)
    (α : (⟨2, ![2048, 1]⟩ : Shape).Idx → EReal) (n : Fin 65536) (u : Fin 1) : EReal :=
  pixelValue β cen (cenSq cen) (fun c => α (ix2 c u)) (fun g => K (ix2 n g)) (fun j => pix (ix2 n j))

/-- The result array, index by index. -/
def result (β : (⟨2, ![1024, 2]⟩ : Shape).Idx → EReal) (K : (⟨2, ![65536, 1024]⟩ : Shape).Idx → EReal)
    (pix : (⟨2, ![65536, 2]⟩ : Shape).Idx → EReal) (cen : (⟨2, ![2048, 2]⟩ : Shape).Idx → EReal)
    (α : (⟨2, ![2048, 1]⟩ : Shape).Idx → EReal) : (⟨2, ![65536, 1]⟩ : Shape).Idx → EReal :=
  fun i => valueAt β K pix cen α (i 0) (i 1)

theorem result_ix2 (β : (⟨2, ![1024, 2]⟩ : Shape).Idx → EReal) (K : (⟨2, ![65536, 1024]⟩ : Shape).Idx → EReal)
    (pix : (⟨2, ![65536, 2]⟩ : Shape).Idx → EReal) (cen : (⟨2, ![2048, 2]⟩ : Shape).Idx → EReal)
    (α : (⟨2, ![2048, 1]⟩ : Shape).Idx → EReal) (n : Fin 65536) (u : Fin 1) :
    result β K pix cen α (ix2 n u) = valueAt β K pix cen α n u := rfl

/-- Halving, two ways: the difference from zero times the word of `1/2`, and the negation divided by the word of `2`,
    are both the negation times `1/2` — at the infinities too (a quotient by a nonzero real is the product with its
    reciprocal on every extended real). -/
theorem scale_mul (x : EReal) :
    (Ideal.ofBits .f32 0x00000000#32 - x) * Ideal.ofBits .f32 0x3F000000#32 = -x * ((1 / 2 : ℝ) : EReal) := by
  rw [Ideal.ofBits_zero_f32, Consts.ofBits_half, zero_sub]

theorem scale_div (x : EReal) :
    Ideal.div (-x) (Ideal.ofBits .f32 0x40000000#32) = -x * ((1 / 2 : ℝ) : EReal) := by
  rw [Consts.ofBits_two, Ideal.div_coe (by norm_num : (2 : ℝ) ≠ 0)]

end Cert.Rbf

end
-- ==== Proof.KernelRow.lean ====
/-
  What the kernel's body computes for one row of its block.

  The body is one pure term of the loaded blocks: a block of the deformation basis, the coefficients, a block of pixels,
  the centres, the row of the centres' squared norms and the centre coefficients.  Read at entry `(r, u)` of the stored
  block it is `pixelValue` of row `r` of the basis block and of the pixel block: the three matrix products are sums over
  their contracted coordinate, the lane sum is a sum of two squares, the column of squared norms and the row of centre
  norms are broadcast over the block, the centres enter the cross term transposed, and the difference from zero times
  `1/2` is the negation times `1/2` (`scale_mul`).  The roundings to the matrix unit's input format are the identity
  on extended reals.
-/
import proofs.«142843_j89232240542412_1_alg».proof.Proof.Gen.KernelIdeal.Skeleton
import proofs.«142843_j89232240542412_1_alg».proof.Proof.KernelDots
import proofs.«142843_j89232240542412_1_alg».proof.Proof.LibKeepdims
import proofs.«142843_j89232240542412_1_alg».proof.Proof.RbfRow
import Idealize.ShloMosaic.Lib.ValueLayout

noncomputable section

open scoped BigOperators

namespace Cert.Rbf.Kernel

open Idealize.ShloMosaic Idealize.ShloMosaic.ValueIdx Cert.KernelIdeal Cert.KernelIdeal.Gen

/-- The exponential of a vector, read at an index. -/
theorem exp_apply {s : Shape} {φ : FTy} (x : FVec Ideal s φ) (i : s.Idx) : exp x i = Ideal.exp (x i) := rfl

/-- A sum along the two lanes of a `[1024, 2]` block, at row `r`. -/
theorem lane_sum (w : FVec Ideal S1024x2 .f32) (r : Fin 1024) :
    multiReduction .add [1] S1024 w 0x00000000#32 reduces_S1024x2_S1024 (.inl rfl) rfl (ix1 r) = ∑ j : Fin 2, w (ix2 r j) := by
  refine (Ideal.multiReduction_add_single w 0x00000000#32 reduces_S1024x2_S1024 (.inl rfl) rfl (ix1 r)).trans ?_
  refine Finset.sum_congr rfl fun j _ => congrArg w ?_
  funext a
  apply Fin.ext
  match a with
  | ⟨0, _⟩ => rfl
  | ⟨1, _⟩ => rfl

/-- The block's displaced pixels: the pixel block less the basis block times the coefficients. -/
theorem displaced_blk (kb : FVec Ideal S1024x1024 .f32) (b : FVec Ideal S1024x2 .f32) (pb : FVec Ideal S1024x2 .f32)
    (r : Fin 1024) (j : Fin 2) :
    subf pb (matmul dot_S1024x1024_S1024x2_S1024x2_1_0_0_1_n_n none (truncf .bf16 kb bitsLt_bf16_f32)
        (truncf .bf16 b bitsLt_bf16_f32) (constant S1024x2 .f32 0x00000000#32)) (ix2 r j)
      = shifted b (fun g => kb (ix2 r g)) (fun j => pb (ix2 r j)) j := by
  rw [subf_apply, basis_times_coeffs]
  rfl

/-- The cross term: displaced pixels times the transposed centres. -/
theorem cross_blk (d : FVec Ideal S1024x2 .f32) (cen : Vec Ideal S2048x2 .f32) (r : Fin 1024) (c : Fin 2048) :
    matmul dot_S1024x2_S2x2048_S1024x2048_1_0_0_1_n_n none (truncf .bf16 d bitsLt_bf16_f32)
        (transpose S2x2048 [1, 0] (truncf .bf16 cen bitsLt_bf16_f32) transposes_S2048x2_p1_0_S2x2048)
        (constant S1024x2048 .f32 0x00000000#32) (ix2 r c)
      = ∑ j : Fin 2, d (ix2 r j) * cen (ix2 c j) := by
  rw [pixels_times_centres]
  refine Finset.sum_congr rfl fun j _ => ?_
  rw [transpose_ix2_apply]
  rfl

/-- From the displaced pixels to the Gaussian weight of centre `c` for row `r`. -/
theorem weight_blk (d : FVec Ideal S1024x2 .f32) (cen : Vec Ideal S2048x2 .f32) (csq : Vec Ideal S1x2048 .f32)
    (r : Fin 1024) (c : Fin 2048) :
    exp (mulf (subf (broadcast S1024x2048 (Scalar.ofBits .f32 0x00000000#32))
          (subf (addf
              (broadcastTo S1024x2048 (shapeCast S1024x1
                (multiReduction .add [1] S1024 (mulf d d) 0x00000000#32 reduces_S1024x2_S1024 (.inl rfl) rfl)
                shapeCasts_S1024_S1024x1) broadcasts_S1024x1_S1024x2048)
              (broadcastTo S1024x2048 (shapeCast S1x2048 csq shapeCasts_S1x2048_S1x2048) broadcasts_S1x2048_S1024x2048))
            (mulf (broadcast S1024x2048 (Scalar.ofBits .f32 0x40000000#32))
              (matmul dot_S1024x2_S2x2048_S1024x2048_1_0_0_1_n_n none (truncf .bf16 d bitsLt_bf16_f32)
                (transpose S2x2048 [1, 0] (truncf .bf16 cen bitsLt_bf16_f32) transposes_S2048x2_p1_0_S2x2048)
                (constant S1024x2048 .f32 0x00000000#32)))))
        (broadcast S1024x2048 (Scalar.ofBits .f32 0x3F000000#32))) (ix2 r c)
      = Ideal.exp (-(sqDist cen (fun c => csq (ix2 (0 : Fin 1) c)) (fun j => d (ix2 r j)) c) * ((1 / 2 : ℝ) : EReal)) := by
  rw [exp_apply, mulf_apply, subf_apply, subf_apply, addf_apply, mulf_apply, broadcast_apply, broadcast_apply,
    broadcast_apply, Cert.LibKeepdims.broadcastTo_a1_ab_apply, Cert.LibKeepdims.shapeCast_a_a1_apply, lane_sum,
    broadcastTo_1b_ab_apply, shapeCast_self, cross_blk]
  exact congrArg Ideal.exp (scale_mul _)

/-- THE BODY'S PAYLOAD at entry `(r, u)` of the stored block: the pixel value of row `r`. -/
theorem payload_apply (kb : Vec Ideal S1024x1024 .f32) (b : Vec Ideal S1024x2 .f32) (pb : Vec Ideal S1024x2 .f32)
    (cen : Vec Ideal S2048x2 .f32) (csq : Vec Ideal S1x2048 .f32) (al : Vec Ideal S2048x1 .f32) (r : Fin 1024) (u : Fin 1) :
    k0_pay1 kb b pb cen csq al (ix2 r u)
      = pixelValue b cen (fun c => csq (ix2 (0 : Fin 1) c)) (fun c => al (ix2 c u)) (fun g => kb (ix2 r g))
          (fun j => pb (ix2 r j)) := by
  unfold k0_pay1
  dsimp only
  rw [weights_times_coeffs]
  unfold pixelValue
  refine Finset.sum_congr rfl fun c _ => ?_
  rw [truncf_apply, truncf_apply, weight_blk]
  simp only [displaced_blk]

end Cert.Rbf.Kernel

end
-- ==== Proof.CentreNorms.lean ====
/-
  The row of centre norms the kernel is handed.

  Before the kernel runs, the centres' squared norms are computed once: the centres squared entry by entry, summed along
  each centre's two coordinates from zero, kept as a column and transposed into a `[1, 2048]` row.  Entry `(0, c)` of that
  row is centre `c`'s squared norm.
-/
import proofs.«142843_j89232240542412_1_alg».proof.Proof.Gen.KernelIdeal
import proofs.«142843_j89232240542412_1_alg».proof.Proof.RbfRow
import Idealize.ShloMosaic.Lib.ValueLayout

noncomputable section

open scoped BigOperators

namespace Cert.Rbf.Kernel

open Idealize.ShloMosaic Idealize.ShloMosaic.ValueIdx Cert.KernelIdeal Cert.KernelIdeal.Facts₀

/-- The term computed before the kernel from the centres `x`. -/
def normsRow (x : FVec Ideal S2048x2 .f32) : FVec Ideal S1x2048 .f32 :=
  transpose S1x2048 [1, 0]
    (broadcastInDim S2048x1 ![0] bcast_S2048_S2048x1_0
      (Host.reduceAdd (F := Ideal) (mulf x x) (constant (F := Ideal) S_ .f32 0x00000000#32) reducesTo_S2048x2_S2048_d1 h_S_))
    transposes_S2048x1_S1x2048_1_0

/-- Its entry `(0, c)` is centre `c`'s squared norm. -/
theorem normsRow_apply (x : FVec Ideal S2048x2 .f32) (c : Fin 2048) : normsRow x (ix2 (0 : Fin 1) c) = cenSq x c := by
  unfold normsRow
  rw [transpose_ix2_apply]
  rw [broadcastInDim_apply _ bcast_S2048_S2048x1_0 _ (ix2 c (0 : Fin 1)) (ix1 c) (fun a => match a with
    | ⟨0, _⟩ => by show c.val = if (2048 : Nat) = 1 then 0 else c.val; rw [if_neg (by decide)])]
  simp only [Host.reduceAdd, Ideal.hostReduceAdd_def]
  rw [Ideal.hostReduceAdd_single reducesTo_S2048x2_S2048_d1 (by decide), constant_apply, Ideal.ofBits_zero_f32, zero_add]
  refine Finset.sum_congr rfl fun j _ => ?_
  have e : (by decide : S2048x2.Reduces [1] S2048).lift (ix1 c) j = ix2 c j :=
    funext fun a => Fin.ext (by match a with | ⟨0, _⟩ => rfl | ⟨1, _⟩ => rfl)
  rw [e]
  rfl

end Cert.Rbf.Kernel

end
-- ==== Proof.KernelArray.lean ====
/-
  From the kernel's blocks to its result array.

  The grid has 64 points; point `t` is handed rows `1024·t … 1024·t + 1023` of the deformation basis and of the pixel
  array, the coefficients, the centres, the centre coefficients and the row of centre norms whole, and writes back rows
  `1024·t … 1024·t + 1023` of the result.  Since a pixel's value depends on its own rows only, what point `t` writes back
  is block `t` of the radial-basis sum of the whole arrays; the 64 blocks cover the result array (row `n` lies in block
  `n / 1024`), so the array ends at the radial-basis sum.
-/
import proofs.«142843_j89232240542412_1_alg».proof.Proof.Gen.KernelIdeal.Value
import proofs.«142843_j89232240542412_1_alg».proof.Proof.KernelRow
import proofs.«142843_j89232240542412_1_alg».proof.Proof.CentreNorms
import Idealize.ShloMosaic.Lib.Pipeline.Value
import Idealize.ShloMosaic.Lib.StableHlo.Run

noncomputable section

open scoped BigOperators

namespace Cert.Rbf.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Rbf.Kernel

variable (m : (ℓ : Loc nD τ sig) → Buf (Elt Ideal) ℓ) (ρ : Dev nD → PrngReg)

theorem hz : (![0, 0] : Fin 2 → Nat) = fun _ => 0 := funext fun a => by fin_cases a <;> rfl

/-- The radial-basis sum of the argument arrays as launched. -/
abbrev whole (c : Dev nD) : S65536x1.Idx → Elt Ideal .f32 :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The printed index maps, decided over the grid: the basis, the pixels and the result move by one block of rows per
    point; the other four windows stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of its array -/

/-- The basis block at point `t`: row `r` is row `1024·t + r` of the basis. -/
theorem read_basis (c : Dev nD) (t : Fin cfg0.N) (r g : Fin 1024) (n : Fin 65536) (hn : n.val = t.val * 1024 + r.val) :
    (iblk m c 0 t : Vec Ideal S1024x1024 .f32) (ix2 r g)
      = (m ((c : Thread nD τ).loc main_arg1) : S65536x1024.Idx → Elt Ideal .f32) (ix2 n g) := by
  obtain ⟨e0, e1, -⟩ := idx_facts t
  unfold iblk
  rw [View.read_apply]
  show V m c main_arg1 _ = _
  rw [V_main_arg1]
  refine congrArg (m ((c : Thread nD τ).loc main_arg1)) ?_
  funext a
  apply Fin.ext
  match a with
  | ⟨0, _⟩ => show win0_0.index t (0 : Fin 2) * 1024 + 1 * r.val = n.val; rw [e0, hn]; omega
  | ⟨1, _⟩ => show win0_0.index t (1 : Fin 2) * 1024 + 1 * g.val = g.val; rw [e1]; omega

/-- The pixel block at point `t`: row `r` is row `1024·t + r` of the pixel array. -/
theorem read_pixels (c : Dev nD) (t : Fin cfg0.N) (r : Fin 1024) (j : Fin 2) (n : Fin 65536) (hn : n.val = t.val * 1024 + r.val) :
    (iblk m c 2 t : Vec Ideal S1024x2 .f32) (ix2 r j)
      = (m ((c : Thread nD τ).loc main_arg2) : S65536x2.Idx → Elt Ideal .f32) (ix2 n j) := by
  obtain ⟨-, -, -, -, e0, e1, -⟩ := idx_facts t
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t (0 : Fin 2) * 1024 + 1 * r.val = n.val; rw [e0, hn]; omega
  | ⟨1, _⟩ => show win0_2.index t (1 : Fin 2) * 2 + 1 * j.val = j.val; rw [e1]; omega

/-- The coefficients' one block is the coefficient array. -/
theorem read_coeffs (c : Dev nD) (t : Fin cfg0.N) :
    (iblk m c 1 t : Vec Ideal S1024x2 .f32) = m ((c : Thread nD τ).loc main_arg0) := by
  obtain ⟨-, -, e0, e1, -⟩ := idx_facts t
  funext y
  unfold iblk
  rw [View.read_apply]
  show V m c main_arg0 _ = _
  rw [V_main_arg0]
  refine congrArg (m ((c : Thread nD τ).loc main_arg0)) ?_
  funext a
  apply Fin.ext
  match a with
  | ⟨0, _⟩ => show win0_1.index t (0 : Fin 2) * 1024 + 1 * (y 0).val = (y 0).val; rw [e0]; omega
  | ⟨1, _⟩ => show win0_1.index t (1 : Fin 2) * 2 + 1 * (y 1).val = (y 1).val; rw [e1]; omega

/-- The centres' one block is the centre array. -/
theorem read_centres (c : Dev nD) (t : Fin cfg0.N) :
    (iblk m c 3 t : Vec Ideal S2048x2 .f32) = m ((c : Thread nD τ).loc main_arg3) := by
  obtain ⟨-, -, -, -, -, -, e0, e1, -⟩ := idx_facts t
  funext y
  unfold iblk
  rw [View.read_apply]
  show V m c main_arg3 _ = _
  rw [V_main_arg3]
  refine congrArg (m ((c : Thread nD τ).loc main_arg3)) ?_
  funext a
  apply Fin.ext
  match a with
  | ⟨0, _⟩ => show win0_3.index t (0 : Fin 2) * 2048 + 1 * (y 0).val = (y 0).val; rw [e0]; omega
  | ⟨1, _⟩ => show win0_3.index t (1 : Fin 2) * 2 + 1 * (y 1).val = (y 1).val; rw [e1]; omega

/-- The centre coefficients' one block is their array. -/
theorem read_weights (c : Dev nD) (t : Fin cfg0.N) :
    (iblk m c 4 t : Vec Ideal S2048x1 .f32) = m ((c : Thread nD τ).loc main_arg4) := by
  obtain ⟨-, -, -, -, -, -, -, -, e0, e1, -⟩ := idx_facts t
  funext y
  unfold iblk
  rw [View.read_apply]
  show V m c main_arg4 _ = _
  rw [V_main_arg4]
  refine congrArg (m ((c : Thread nD τ).loc main_arg4)) ?_
  funext a
  apply Fin.ext
  match a with
  | ⟨0, _⟩ => show win0_4.index t (0 : Fin 2) * 2048 + 1 * (y 0).val = (y 0).val; rw [e0]; omega
  | ⟨1, _⟩ => show win0_4.index t (1 : Fin 2) * 1 + 1 * (y 1).val = (y 1).val; rw [e1]; omega

/-- What the region finds in the row of centre norms: the term computed before it from the centres as launched. -/
theorem norms_found (c : Dev nD) :
    (V m c main_v3 : S1x2048.Idx → Elt Ideal .f32) = normsRow (m ((c : Thread nD τ).loc main_arg3)) := by
  unfold normsRow
  dsimp only [V, hostOps0]
  after_results

/-- The block of centre norms at any point, at `(0, c')`, is centre `c'`'s squared norm. -/
theorem read_norms (c : Dev nD) (t : Fin cfg0.N) (c' : Fin 2048) :
    (iblk m c 5 t : Vec Ideal S1x2048 .f32) (ix2 (0 : Fin 1) c') = cenSq (m ((c : Thread nD τ).loc main_arg3)) c' := by
  obtain ⟨-, -, -, -, -, -, -, -, -, -, e0, e1, -⟩ := idx_facts t
  unfold iblk
  rw [View.read_apply]
  show V m c main_v3 _ = _
  rw [norms_found, ← normsRow_apply]
  refine congrArg (normsRow (m ((c : Thread nD τ).loc main_arg3))) ?_
  funext a
  apply Fin.ext
  match a with
  | ⟨0, _⟩ => show win0_5.index t (0 : Fin 2) * 1 + 1 * 0 = 0; rw [e0]
  | ⟨1, _⟩ => show win0_5.index t (1 : Fin 2) * 2048 + 1 * c'.val = c'.val; rw [e1]; omega

/-! ## What a point writes back, the cover, the final array -/

/-- Entry `(r, u)` of the result's block at point `t` is entry `(1024·t + r, u)` of the array. -/
theorem out_emb (t : Fin cfg0.N) (r : Fin 1024) (u : Fin 1) (n : Fin 65536) (hn : n.val = t.val * 1024 + r.val) :
    ((cfg0.win 6).blk t).view.emb (ix2 r u) = (ix2 n u : S65536x1.Idx) := by
  obtain ⟨-, -, -, -, -, -, -, -, -, -, -, -, e0, e1⟩ := idx_facts t
  funext a
  apply Fin.ext
  match a with
  | ⟨0, _⟩ => show win0_6.index t (0 : Fin 2) * 1024 + 1 * r.val = n.val; rw [e0, hn]; omega
  | ⟨1, _⟩ => show win0_6.index t (1 : Fin 2) * 1 + 1 * u.val = u.val; rw [e1]; omega

/-- WHAT POINT `t` WRITES BACK is block `t` of the radial-basis sum of the whole arrays. -/
theorem flushed_eq (c : Dev nD) (t : Fin cfg0.N) :
    (dats m 0 c).flushed 6 t = ((cfg0.win 6).blk t).view.read (Elt Ideal) (whole m c) := by
  have hN : cfg0.N = 64 := N_0
  rw [Cert.KernelIdeal.Value.flushed6]
  unfold out0_6
  rw [View.canon_unit_zero hz]
  simp only [View.ld_unit_zero (S := S1024x1024) hz, View.ld_unit_zero (S := S1024x2) hz,
    View.ld_unit_zero (S := S2048x2) hz, View.ld_unit_zero (S := S2048x1) hz, View.ld_unit_zero (S := S1x2048) hz]
  funext y
  obtain ⟨r, u, rfl⟩ : ∃ (r : Fin 1024) (u : Fin 1), y = ix2 r u := ⟨y 0, y 1, eq_ix2 y⟩
  obtain ⟨n, hn⟩ : ∃ n : Fin 65536, n.val = t.val * 1024 + r.val :=
    ⟨⟨t.val * 1024 + r.val, by have := t.isLt; have := r.isLt; omega⟩, rfl⟩
  show k0_pay1 (iblk m c 0 t) (iblk m c 1 t) (iblk m c 2 t) (iblk m c 3 t) (iblk m c 5 t) (iblk m c 4 t) (ix2 r u)
    = whole m c (((cfg0.win 6).blk t).view.emb (ix2 r u))
  rw [out_emb t r u n hn]
  refine (payload_apply (iblk m c 0 t) (iblk m c 1 t) (iblk m c 2 t) (iblk m c 3 t) (iblk m c 5 t) (iblk m c 4 t) r u).trans ?_
  show _ = pixelValue (m ((c : Thread nD τ).loc main_arg0)) (m ((c : Thread nD τ).loc main_arg3))
    (cenSq (m ((c : Thread nD τ).loc main_arg3))) (fun c' => m ((c : Thread nD τ).loc main_arg4) (ix2 c' u))
    (fun g => m ((c : Thread nD τ).loc main_arg1) (ix2 n g)) (fun j => m ((c : Thread nD τ).loc main_arg2) (ix2 n j))
  rw [read_coeffs m c t, read_centres m c t, read_weights m c t]
  simp only [read_norms m c t, read_basis m c t r _ n hn, read_pixels m c t r _ n hn]

/-- An index of the result array is in point `t`'s block iff each coordinate is in the block's range on its axis. -/
theorem mem_blk (t : Fin cfg0.N) (i : S65536x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v4).slice (win0_6.rect t)).set ↔ _
  rw [View.set_slice_whole, Rect.mem_set_unit]
  exact Iff.rfl

/-- Every row of the result is in some point's block: row `n` in block `n / 1024`. -/
theorem covered (i : S65536x1.Idx) :
    ∃ t : Fin cfg0.N, (cfg0.win 6).flush t = true ∧ i ∈ ((cfg0.win 6).blk t).view.set := by
  have hN : cfg0.N = 64 := N_0
  have hi0 : (i 0).val < 65536 := (i 0).isLt
  have hi1 : (i 1).val < 1 := (i 1).isLt
  obtain ⟨t, ht⟩ : ∃ t : Fin cfg0.N, t.val = (i 0).val / 1024 := ⟨⟨(i 0).val / 1024, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 1 ≤ (i 1).val ∧ (i 1).val < win0_6.index t (1 : Fin 2) * 1 + 1
    rw [e1]; omega

/-- THE RESULT ARRAY after the run is the radial-basis sum of the argument arrays. -/
theorem final (c : Dev nD) : (dats m 0 c).arrAt 6 cfg0.N = whole m c :=
  (dats m 0 c).arrAt_eq_of_cover 6 (whole m c) (fun t _ => flushed_eq m c t) covered

/-- The kernel's run: the result array at the radial-basis sum, the arguments unchanged. -/
theorem run : θ_run defs (onTc (τ := τ) (main (F := Ideal))) ⟨m, fun _ => 0, ρ⟩ fun r => ∀ c : Dev nD,
      r.2.mem ((c : Thread nD τ).loc main_v4) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Rbf.KernelArray

end
-- ==== Proof.RefRow.lean ====
/-
  The reference computes the radial-basis sum.

  Its program is read one operation at a time, each at an index written by coordinates: the matrix products as sums over
  the contracted coordinate, the two row sums as the initial zero plus a sum of two terms, the broadcasts and the
  transpose as re-indexings.  Pixel `n`'s entry of the result then is `pixelValue` of row `n` of the deformation basis and
  of the pixel array, the centres' squared norms being the row sums of the squared centres; the quotient by `2` of the
  negated distance is the product with `1/2` (`scale_div`).
-/
import proofs.«142843_j89232240542412_1_alg».proof.Proof.Gen.ReferenceIdeal.Read
import proofs.«142843_j89232240542412_1_alg».proof.Proof.RbfRow

noncomputable section

open scoped BigOperators

namespace Cert.Rbf.Ref

open Idealize.ShloMosaic Idealize.ShloMosaic.ValueIdx Cert.ReferenceIdeal Cert.ReferenceIdeal.Read

variable (β : (⟨S1024x2, .f32⟩ : BufTy).Contents (Elt Ideal)) (K : (⟨S65536x1024, .f32⟩ : BufTy).Contents (Elt Ideal))
  (pix : (⟨S65536x2, .f32⟩ : BufTy).Contents (Elt Ideal)) (cen : (⟨S2048x2, .f32⟩ : BufTy).Contents (Elt Ideal))
  (α : (⟨S2048x1, .f32⟩ : BufTy).Contents (Elt Ideal))

/-- Pixel `n` displaced by the deformation field. -/
abbrev disp (n : Fin 65536) : Fin 2 → EReal := shifted β (fun g => K (ix2 n g)) (fun j => pix (ix2 n j))

/-! ## The operand indices of each operation, at an index written by coordinates -/

theorem lidx_v0 (n : Fin 65536) (j : Fin 2) (g : Fin 1024) : lidx_main_v0 (ix2 n j) g = ix2 n g :=
  funext fun a => Fin.ext (by match a with | ⟨0, _⟩ => rfl | ⟨1, _⟩ => rfl)
theorem ridx_v0 (n : Fin 65536) (j : Fin 2) (g : Fin 1024) : ridx_main_v0 (ix2 n j) g = ix2 g j :=
  funext fun a => Fin.ext (by match a with | ⟨0, _⟩ => rfl | ⟨1, _⟩ => rfl)
theorem idx_v3 (n : Fin 65536) (j : Fin 2) : idx_main_v3 (ix1 n) j = ix2 n j :=
  funext fun a => Fin.ext (by match a with | ⟨0, _⟩ => rfl | ⟨1, _⟩ => rfl)
theorem idx_v6 (c : Fin 2048) (j : Fin 2) : idx_main_v6 (ix1 c) j = ix2 c j :=
  funext fun a => Fin.ext (by match a with | ⟨0, _⟩ => rfl | ⟨1, _⟩ => rfl)
theorem idx_v8 (n : Fin 65536) (c : Fin 2048) : idx_main_v4 (idx_main_v8 (ix2 n c)) = ix1 n :=
  funext fun a => Fin.ext (by match a with | ⟨0, _⟩ => rfl)
theorem idx_v9 (n : Fin 65536) (c : Fin 2048) : idx_main_v7 (idx_main_v9 (ix2 n c)) = ix1 c :=
  funext fun a => Fin.ext (by match a with | ⟨0, _⟩ => rfl)
theorem lidx_v12 (n : Fin 65536) (c : Fin 2048) (j : Fin 2) : lidx_main_v12 (ix2 n c) j = ix2 n j :=
  funext fun a => Fin.ext (by match a with | ⟨0, _⟩ => rfl | ⟨1, _⟩ => rfl)
theorem ridx_v12 (n : Fin 65536) (c : Fin 2048) (j : Fin 2) : idx_main_v11 (ridx_main_v12 (ix2 n c) j) = ix2 c j :=
  funext fun a => Fin.ext (by match a with | ⟨0, _⟩ => rfl | ⟨1, _⟩ => rfl)
theorem lidx_v20 (n : Fin 65536) (u : Fin 1) (c : Fin 2048) : lidx_main_v20 (ix2 n u) c = ix2 n c :=
  funext fun a => Fin.ext (by match a with | ⟨0, _⟩ => rfl | ⟨1, _⟩ => rfl)
theorem ridx_v20 (n : Fin 65536) (u : Fin 1) (c : Fin 2048) : ridx_main_v20 (ix2 n u) c = ix2 c u :=
  funext fun a => Fin.ext (by match a with | ⟨0, _⟩ => rfl | ⟨1, _⟩ => rfl)

/-! ## The stages -/

/-- The displaced pixels: the pixel array less the basis times the coefficients. -/
theorem displaced_apply (n : Fin 65536) (j : Fin 2) :
    val_main_v1 (F := Ideal) β K pix (ix2 n j) = disp β K pix n j := by
  rw [val_main_v1_apply, val_main_v0_apply]
  simp only [lidx_v0, ridx_v0]
  rfl

/-- A displaced pixel's squared norm: the zero the sum starts from, plus its two squares. -/
theorem pixSq_apply (n : Fin 65536) :
    val_main_v3 (F := Ideal) β K pix (ix1 n) = ∑ j : Fin 2, disp β K pix n j * disp β K pix n j := by
  rw [val_main_v3_apply, val_main_cst_apply, Ideal.ofBits_def, Ideal.ofBits_zero_f32, zero_add]
  refine Finset.sum_congr rfl fun j _ => ?_
  rw [idx_v3, val_main_v2_apply, displaced_apply]
  rfl

/-- A centre's squared norm. -/
theorem cenSq_apply (c : Fin 2048) : val_main_v6 (F := Ideal) cen (ix1 c) = cenSq cen c := by
  rw [val_main_v6_apply, val_main_cst_0_apply, Ideal.ofBits_def, Ideal.ofBits_zero_f32, zero_add]
  refine Finset.sum_congr rfl fun j _ => ?_
  rw [idx_v6, val_main_v5_apply]
  rfl

/-- The inner product of a displaced pixel with a centre. -/
theorem cross_apply (n : Fin 65536) (c : Fin 2048) :
    val_main_v12 (F := Ideal) β K pix cen (ix2 n c) = ∑ j : Fin 2, disp β K pix n j * cen (ix2 c j) := by
  rw [val_main_v12_apply]
  refine Finset.sum_congr rfl fun j _ => ?_
  rw [lidx_v12, displaced_apply, val_main_v11_apply, ridx_v12]

/-- The squared distance by the expansion. -/
theorem sqDist_apply (n : Fin 65536) (c : Fin 2048) :
    val_main_v15 (F := Ideal) β K pix cen (ix2 n c) = sqDist cen (cenSq cen) (disp β K pix n) c := by
  rw [val_main_v15_apply, val_main_v10_apply, val_main_v14_apply, val_main_v8_apply, val_main_v4_apply, idx_v8,
    pixSq_apply, val_main_v9_apply, val_main_v7_apply, idx_v9, cenSq_apply, val_main_v13_apply, val_main_cst_1_apply,
    cross_apply]
  rfl

/-- The Gaussian weight of centre `c` for pixel `n`. -/
theorem weight_apply (n : Fin 65536) (c : Fin 2048) :
    val_main_v19 (F := Ideal) β K pix cen (ix2 n c)
      = Ideal.exp (-(sqDist cen (cenSq cen) (disp β K pix n) c) * ((1 / 2 : ℝ) : EReal)) := by
  rw [val_main_v19_apply, val_main_v18_apply, val_main_v16_apply, val_main_v17_apply, val_main_cst_2_apply, sqDist_apply]
  simp only [Ideal.hostUnary_exp_def, Ideal.hostDivf_def, Ideal.hostNegf_def, Ideal.negf_def, Ideal.ofBits_def, scale_div]

/-- THE REFERENCE'S RESULT is the radial-basis sum of the argument arrays. -/
theorem value_eq : val_main_v20 (F := Ideal) β K pix cen α = result β K pix cen α := by
  funext i
  obtain ⟨n, u, rfl⟩ : ∃ (n : Fin 65536) (u : Fin 1), i = ix2 n u := ⟨i 0, i 1, eq_ix2 i⟩
  rw [val_main_v20_apply, result_ix2]
  unfold valueAt pixelValue
  refine Finset.sum_congr rfl fun c _ => ?_
  rw [lidx_v20, ridx_v20, weight_apply]

end Cert.Rbf.Ref

end
-- ==== Proof.lean ====
/-
  The kernel and its reference compute one function of the argument arrays: for every pixel, the sum over the centres of
  `exp(−dist²/2)` times the centre's coefficient, `dist²` being the expanded squared distance from the pixel, displaced
  by the deformation field, to the centre.

  The kernel tiles the pixels in 64 blocks of 1024 rows and takes the centres' squared norms from a row computed before
  it; the reference works on whole arrays.  Both are read down to the same per-pixel function (`Cert.Rbf.pixelValue`):
  the reference operation by operation, the kernel from what each grid point writes back, block by block.  The two
  differ in how the halving of the distance is written, a product with `1/2` of a difference from zero against a
  quotient by `2` of a negation; these agree on every extended real, so the inputs' finiteness is not used.
  The idealization rewrote nothing, so there is nothing to preserve; the three frames are the programs' runs.
-/
import proofs.«142843_j89232240542412_1_alg».proof.Defs
import proofs.«142843_j89232240542412_1_alg».proof.Proof.Gen.Kernel
import proofs.«142843_j89232240542412_1_alg».proof.Proof.Gen.Kernel.Skeleton
import proofs.«142843_j89232240542412_1_alg».proof.Proof.Gen.Kernel.Launch
import proofs.«142843_j89232240542412_1_alg».proof.Proof.Gen.Kernel.Points
import proofs.«142843_j89232240542412_1_alg».proof.Proof.Gen.Kernel.Frame
import proofs.«142843_j89232240542412_1_alg».proof.Proof.Gen.KernelIdeal
import proofs.«142843_j89232240542412_1_alg».proof.Proof.Gen.KernelIdeal.Skeleton
import proofs.«142843_j89232240542412_1_alg».proof.Proof.Gen.KernelIdeal.Launch
import proofs.«142843_j89232240542412_1_alg».proof.Proof.Gen.KernelIdeal.Points
import proofs.«142843_j89232240542412_1_alg».proof.Proof.Gen.KernelIdeal.Frame
import proofs.«142843_j89232240542412_1_alg».proof.Proof.Gen.KernelIdeal.Value
import proofs.«142843_j89232240542412_1_alg».proof.Proof.Gen.ReferenceIdeal
import proofs.«142843_j89232240542412_1_alg».proof.Proof.Gen.ReferenceIdeal.Run
import proofs.«142843_j89232240542412_1_alg».proof.Proof.Gen.ReferenceIdeal.Read
import proofs.«142843_j89232240542412_1_alg».proof.Proof.Gen.Pre_finite_inputs
import proofs.«142843_j89232240542412_1_alg».proof.Proof.KernelArray
import proofs.«142843_j89232240542412_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the radial-basis sum of its arguments (block by block), the reference's at its
    operations' term, which is the same sum of arguments that agree. -/
theorem algebraic : Cert.algebraic_KernelIdeal_ReferenceIdeal := by
  intro m ρ m' ρ' _ hagree
  refine ⟨fun c => Cert.Rbf.KernelArray.whole m c, Cert.Rbf.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Rbf.Ref.value_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
